-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4096x1024 .f32) (main_arg1 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.Spec.lean ====
/-
  The weighted Łukasiewicz conjunction, as ONE function of the two argument arrays.

  For truth values `X : [4096, 1024]` and raw weights `W : [1024, 1024]`, entry `(b, o)` of the result is

      max (1 - ∑ k, (1 - X[b, k]) · σ(W[k, o])) 0,        σ(w) = 1 / (1 + e^(-w)),

  read on the extended reals: `σ` is the logistic function with its limits `σ(-∞) = 0`, `σ(+∞) = 1`, the sum
  runs over the 1024 input features in their natural order, and `max · 0` clips the conjunction at falsity.
  Both programs compute exactly this expression, with the same association of every sum and product, so no law
  of arithmetic beyond the meaning of the two literals `1.0` and `0.0` is needed, and in particular nothing
  about finiteness of the inputs.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.FuzzyAnd

open Idealize.ShloMosaic Idealize.ShloMosaic.ValueIdx

/-- Entry `(b, o)` of the conjunction: one minus the weighted sum of the negated truth values of row `b` against
    column `o` of the squashed weights, clipped below at zero. -/
def conjAt (X : (⟨2, ![4096, 1024]⟩ : Shape).Idx → EReal) (W : (⟨2, ![1024, 1024]⟩ : Shape).Idx → EReal)
    (b : Fin 4096) (o : Fin 1024) : EReal :=
  max (1 - ∑ k : Fin 1024, (1 - X (ix2 b k)) * Ideal.logistic (W (ix2 k o))) 0

/-- The whole result array: `conjAt` at the two coordinates of the index. -/
def conj (X : (⟨2, ![4096, 1024]⟩ : Shape).Idx → EReal) (W : (⟨2, ![1024, 1024]⟩ : Shape).Idx → EReal) :
    (⟨2, ![4096, 1024]⟩ : Shape).Idx → EReal :=
  fun i => conjAt X W (i 0) (i 1)

theorem conj_ix2 (X : (⟨2, ![4096, 1024]⟩ : Shape).Idx → EReal) (W : (⟨2, ![1024, 1024]⟩ : Shape).Idx → EReal)
    (b : Fin 4096) (o : Fin 1024) : conj X W (ix2 b o) = conjAt X W b o := rfl

/-- The single-precision word of `1.0` denotes the real number one. -/
theorem one_f32 : Ideal.ofBits .f32 0x3F800000#32 = 1 := IdealRules.sign_bit.ideal_onePat .f32

/-- The single-precision word of `0.0` denotes zero. -/
theorem zero_f32 : Ideal.ofBits .f32 0x00000000#32 = 0 := Ideal.ofBits_zero_f32

end Cert.FuzzyAnd

end
-- ==== Proof.Payload.lean ====
/-
  The kernel body's stored value, read at one entry of its output block.

  On a block of 512 rows the body loads the rows `x` (512 × 1024) and the whole weight matrix `w` (1024 × 1024),
  forms `1 - x` and the logistic of `w`, narrows both (the identity on exact values), multiplies them as
  matrices into a zero accumulator, subtracts the product from one and clips at zero. Entry `(p, q)` of what it
  stores is therefore `max (1 - ∑ k, (1 - x[p, k]) · σ(w[k, q])) 0`: the matrix product's contraction index is its
  one coordinate `k`, the left factor is read at `(p, k)` and the right at `(k, q)`.
-/
import proofs.«175764_j64338610094619_1_alg».proof.Proof.Gen.KernelIdeal.Skeleton
import proofs.«175764_j64338610094619_1_alg».proof.Proof.Spec
import Idealize.ShloMosaic.Lib.ValueIdx
import Idealize.ShloMosaic.PureOps.Ideal.Laws

noncomputable section

open scoped BigOperators

namespace Cert.FuzzyAnd.Body

open Cert.KernelIdeal Cert.KernelIdeal.Gen Cert.FuzzyAnd
open Idealize.ShloMosaic Idealize.ShloMosaic.ValueIdx

/-- The product's left operand index keeps the output row. -/
theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Its column is the contraction coordinate. -/
theorem lhs_col (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- The right operand's row is the contraction coordinate. -/
theorem rhs_row (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- Its column is the output column. -/
theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block's matrix product into a zero accumulator, at entry `(p, q)`: the sum over the 1024 features of the
    left factor at `(p, k)` times the right factor at `(k, q)`. -/
theorem product_at (l : FVec Ideal S512x1024 .bf16) (r : FVec Ideal S1024x1024 .bf16) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-- What the body stores, at entry `(p, q)` of the block, from the loaded rows `x` and weights `w`. -/
theorem stored_at (x : Vec Ideal S512x1024 .f32) (w : Vec Ideal S1024x1024 .f32) (p : Fin 512) (q : Fin 1024) :
    k0_pay1 (F := Ideal) x w (ix2 p q)
      = max (1 - ∑ k : Fin 1024, (1 - x (ix2 p k)) * Ideal.logistic (w (ix2 k q))) 0 := by
  unfold k0_pay1
  show max (Ideal.ofBits .f32 0x3F800000#32
      - matmul dot_S512x1024_S1024x1024_S512x1024_1_0_0_1_n_n none
          (truncf .bf16 (subf (broadcast S512x1024 (Scalar.ofBits (F := Ideal) .f32 0x3F800000#32)) x) bitsLt_bf16_f32)
          (truncf .bf16 (logistic w) bitsLt_bf16_f32)
          (constant (F := Ideal) S512x1024 .f32 0x00000000#32) (ix2 p q))
      (Ideal.ofBits .f32 0x00000000#32) = _
  rw [product_at, one_f32, zero_f32]
  refine congrArg (fun s => max (1 - s) 0) (Finset.sum_congr rfl fun k _ => ?_)
  show (Ideal.ofBits .f32 0x3F800000#32 - x (ix2 p k)) * Ideal.logistic (w (ix2 k q)) = _
  rw [one_f32]

end Cert.FuzzyAnd.Body

end
-- ==== Proof.Blocks.lean ====
/-
  From the eight row blocks to the whole result array.

  The output is written in eight blocks of 512 consecutive rows, every block all 1024 columns wide. At grid point
  `t` the body sees rows `512·t … 512·t + 511` of the truth values and the whole weight matrix, and writes rows
  `512·t … 512·t + 511` of the result. Entry `(p, q)` of what it writes is the conjunction at array entry
  `(512·t + p, q)`: the row of truth values it contracts is row `p` of the block, which is row `512·t + p` of the
  array, and the weights are the same at every point. Every row `r` of the result lies in the block of point
  `r / 512`, so the blocks cover the array and the result is the conjunction everywhere.
-/
import proofs.«175764_j64338610094619_1_alg».proof.Proof.Gen.KernelIdeal.Value
import proofs.«175764_j64338610094619_1_alg».proof.Proof.Payload

noncomputable section

open scoped BigOperators

namespace Cert.FuzzyAnd.Whole

open Cert.KernelIdeal Cert.KernelIdeal.Gen Cert.FuzzyAnd
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store all start at the block's origin. -/
theorem origin : (![0, 0] : Fin 2 → Nat) = fun _ => 0 := funext fun a => by fin_cases a <;> rfl

/-- There are eight grid points. -/
theorem point_lt (t : Fin cfg0.N) : t.val < 8 := lt_of_lt_of_eq t.isLt N_0

/-- The block index maps, over the grid: at point `t` the truth values' block and the result's block are block row
    `t`, block column `0`; the weights' block is always `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the truth values' block at point `t` is row `512·t + p` of the array. -/
theorem rows_block (c : Dev nD) (t : Fin cfg0.N) (p : Fin 512) (k : Fin 1024) :
    iblk m c 0 t (ix2 p k)
      = V m c main_arg0 (ix2 (⟨t.val * 512 + p.val, by have := point_lt t; have := p.isLt; omega⟩ : Fin 4096) k) := by
  obtain ⟨e0, e1, -, -, -, -⟩ := block_indices t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- The weights' block is the whole weight matrix, at every point. -/
theorem weights_block (c : Dev nD) (t : Fin cfg0.N) (k q : Fin 1024) :
    iblk m c 1 t (ix2 k q) = V m c main_arg1 (ix2 k q) := by
  obtain ⟨-, -, e0, e1, -, -⟩ := block_indices t
  show V m c main_arg1 (((cfg0.win 1).blk t).view.emb (ix2 k q)) = _
  refine congrArg (V m c main_arg1) (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

/-- Entry `(p, q)` of the result's block at point `t` is entry `(512·t + p, q)` of the array. -/
theorem result_block (t : Fin cfg0.N) (p : Fin 512) (q : Fin 1024) :
    ((cfg0.win 2).blk t).view.emb (ix2 p q)
      = ix2 (⟨t.val * 512 + p.val, by have := point_lt t; have := p.isLt; omega⟩ : Fin 4096) q := by
  obtain ⟨-, -, -, -, e0, e1⟩ := block_indices t
  refine funext fun a => Fin.ext ?_
  match a with
  | ⟨0, _⟩ => show win0_2.index t (0 : Fin 2) * 512 + 1 * p.val = t.val * 512 + p.val; omega
  | ⟨1, _⟩ => show win0_2.index t (1 : Fin 2) * 1024 + 1 * q.val = q.val; omega

/-- What point `t` writes back is block `t` of the conjunction of the argument arrays. -/
theorem flushed_eq (c : Dev nD) (t : Fin cfg0.N) :
    (dats m 0 c).flushed 2 t
      = ((cfg0.win 2).blk t).view.read (Elt Ideal) (conj (V m c main_arg0) (V m c main_arg1)) := by
  rw [Cert.KernelIdeal.Value.flushed2]
  unfold out0_2
  rw [View.canon_unit_zero origin]
  simp only [View.ld_unit_zero (S := S512x1024) origin, View.ld_unit_zero (S := S1024x1024) origin]
  funext j
  obtain ⟨p, q, rfl⟩ : ∃ (p : Fin 512) (q : Fin 1024), j = ix2 p q := ⟨j 0, j 1, eq_ix2 j⟩
  show k0_pay1 (iblk m c 0 t) (iblk m c 1 t) (ix2 p q)
    = conj (V m c main_arg0) (V m c main_arg1) (((cfg0.win 2).blk t).view.emb (ix2 p q))
  rw [result_block, conj_ix2]
  refine (Body.stored_at (iblk m c 0 t) (iblk m c 1 t) p q).trans ?_
  unfold conjAt
  refine congrArg (fun s => max (1 - s) 0) (Finset.sum_congr rfl fun k _ => ?_)
  rw [rows_block, weights_block]

/-- An index of the result array lies in point `t`'s block iff each coordinate is in the block's range. -/
theorem mem_block (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every entry of the result array is written: row `r` by point `r / 512`. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have ht : (i 0).val / 512 < cfg0.N := by rw [show cfg0.N = 8 from N_0]; omega
  obtain ⟨-, -, -, -, e0, e1⟩ := block_indices ⟨(i 0).val / 512, ht⟩
  have e0' : win0_2.index ⟨(i 0).val / 512, ht⟩ (0 : Fin 2) = (i 0).val / 512 := e0
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    omega

/-- The result array after the run is the conjunction of the two argument arrays. -/
theorem final (c : Dev nD) :
    (dats m 0 c).arrAt 2 cfg0.N
      = conj (m ((c : Thread nD τ).loc main_arg0)) (m ((c : Thread nD τ).loc main_arg1)) :=
  (dats m 0 c).arrAt_eq_of_cover 2 (conj (V m c main_arg0) (V m c main_arg1)) (fun t _ => flushed_eq m c t) covered

/-- The kernel's run: it terminates with the result array at the conjunction of its arguments, the arguments unchanged. -/
theorem run : θ_run defs (onTc (τ := τ) (main (F := Ideal))) ⟨m, fun _ => 0, ρ⟩ fun r => ∀ c : Dev nD,
      r.2.mem ((c : Thread nD τ).loc main_v0)
        = conj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.FuzzyAnd.Whole

end
-- ==== Proof.RefValue.lean ====
/-
  The reference computes the conjunction.

  The reference spells the logistic function out — negate, exponential, add one, divide one by the result —
  forms `1 - X`, contracts the feature axis of `1 - X` against the squashed weights in one matrix product,
  subtracts from one and takes the maximum with zero. Read at an index `(b, o)`, operation by operation, this is
  `max (1 - ∑ k, (1 - X[b, k]) · (1 / (1 + e^(-W[k, o])))) 0`; the quotient is the logistic function by its
  definition on the extended reals, and the literals `1.0`, `0.0` denote one and zero.
-/
import proofs.«175764_j64338610094619_1_alg».proof.Proof.Gen.ReferenceIdeal.Read
import proofs.«175764_j64338610094619_1_alg».proof.Proof.Spec

noncomputable section

open scoped BigOperators

namespace Cert.FuzzyAnd.Ref

open Cert.ReferenceIdeal Cert.ReferenceIdeal.Read Cert.FuzzyAnd
open Idealize.ShloMosaic Idealize.ShloMosaic.ValueIdx

/-- The left operand of the matrix product at output `(b, o)` and feature `k` is read at `(b, k)`. -/
theorem lhs_index (b : Fin 4096) (o k : Fin 1024) : lidx_main_v8 (ix2 b o) k = ix2 b k :=
  funext fun a => by match a with | ⟨0, _⟩ => rfl | ⟨1, _⟩ => rfl

/-- The right operand is read at `(k, o)`. -/
theorem rhs_index (b : Fin 4096) (o k : Fin 1024) : ridx_main_v8 (ix2 b o) k = ix2 k o :=
  funext fun a => by match a with | ⟨0, _⟩ => rfl | ⟨1, _⟩ => rfl

/-- The reference's last stage, as a function of the two argument arrays, is the conjunction. -/
theorem stage_eq_conj (X : S4096x1024.Idx → EReal) (W : S1024x1024.Idx → EReal) :
    val_main_v12 (F := Ideal) X W = conj X W := by
  funext i
  obtain ⟨b, o, rfl⟩ : ∃ (b : Fin 4096) (o : Fin 1024), i = ix2 b o := ⟨i 0, i 1, eq_ix2 i⟩
  rw [val_main_v12_apply, val_main_v10_apply, val_main_v8_apply, val_main_v11_apply, val_main_v9_apply, conj_ix2]
  simp only [lhs_index, rhs_index, val_main_v7_apply, val_main_v6_apply, val_main_v5_apply, val_main_v4_apply,
    val_main_v3_apply, val_main_v2_apply, val_main_v1_apply, val_main_v0_apply, val_main_cst_apply,
    val_main_cst_0_apply, val_main_cst_1_apply, val_main_cst_2_apply, val_main_cst_3_apply,
    Ideal.maximumf_def, Ideal.subf_def, Ideal.addf_def, Ideal.hostDivf_def, Ideal.hostUnary_exp_def,
    Ideal.hostNegf_def, Ideal.negf_def, Ideal.ofBits_def, one_f32, zero_f32]
  rfl

end Cert.FuzzyAnd.Ref

end
-- ==== Proof.lean ====
/-
  The weighted Łukasiewicz conjunction: a row-blocked kernel against its whole-array reference, on the extended reals.

  Both programs compute, for truth values `X : [4096, 1024]` and raw weights `W : [1024, 1024]`,

      out[b, o] = max (1 - ∑ k, (1 - X[b, k]) · σ(W[k, o])) 0,        σ(w) = 1 / (1 + e^(-w)).

  The kernel does it in eight blocks of 512 rows: per block one logistic of the whole weight matrix, `1 - x`, a
  matrix product into a zero accumulator (its operands narrowed first, which changes nothing on exact values),
  `1 - ·` and the maximum with zero. The reference spells the logistic out (negate, exponential, add one, divide)
  and contracts the feature axis in one matrix product over all rows. On the extended reals the two are the same
  expression entry by entry — the logistic IS that quotient, a matrix product into zero IS the plain sum over the
  features, and each row of the result is computed inside one block — so the claim needs no arithmetic law beyond
  the values of the literals `1.0` and `0.0`, and never uses that the inputs are finite.

  `Spec` states the function; `RefValue` reads the reference's operations at an index; `Payload` reads what the
  kernel body stores at an entry of a block; `Blocks` sets the blocks side by side into the whole array. The
  three programs' termination and the integrity of their arguments come from the generated frame runs, and the
  idealization rewrote nothing, so there is nothing to preserve.
-/
import proofs.«175764_j64338610094619_1_alg».proof.Defs
import proofs.«175764_j64338610094619_1_alg».proof.Proof.Gen.Kernel
import proofs.«175764_j64338610094619_1_alg».proof.Proof.Gen.Kernel.Skeleton
import proofs.«175764_j64338610094619_1_alg».proof.Proof.Gen.Kernel.Launch
import proofs.«175764_j64338610094619_1_alg».proof.Proof.Gen.Kernel.Points
import proofs.«175764_j64338610094619_1_alg».proof.Proof.Gen.Kernel.Frame
import proofs.«175764_j64338610094619_1_alg».proof.Proof.Gen.KernelIdeal
import proofs.«175764_j64338610094619_1_alg».proof.Proof.Gen.KernelIdeal.Skeleton
import proofs.«175764_j64338610094619_1_alg».proof.Proof.Gen.KernelIdeal.Launch
import proofs.«175764_j64338610094619_1_alg».proof.Proof.Gen.KernelIdeal.Points
import proofs.«175764_j64338610094619_1_alg».proof.Proof.Gen.KernelIdeal.Frame
import proofs.«175764_j64338610094619_1_alg».proof.Proof.Gen.ReferenceIdeal
import proofs.«175764_j64338610094619_1_alg».proof.Proof.Gen.Pre_finite_inputs
import proofs.«175764_j64338610094619_1_alg».proof.Proof.Gen.KernelIdeal.Value
import proofs.«175764_j64338610094619_1_alg».proof.Proof.Gen.ReferenceIdeal.Run
import proofs.«175764_j64338610094619_1_alg».proof.Proof.Gen.ReferenceIdeal.Read
import proofs.«175764_j64338610094619_1_alg».proof.Proof.Blocks
import proofs.«175764_j64338610094619_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the truth values and the weights, the kernel's result array and the reference's
    are both the conjunction of those arguments, hence equal entry by entry. -/
theorem algebraic : Cert.algebraic_KernelIdeal_ReferenceIdeal := by
  intro m ρ m' ρ' _ hagree
  refine ⟨_, Cert.FuzzyAnd.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.FuzzyAnd.Ref.stage_eq_conj, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
